-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x64 : Shape := ⟨3, ![256, 512, 64]⟩
abbrev S_ : Shape := ⟨0, ![]⟩

class Facts : Prop where
  bcast_S_S256x512x64 : S_.BroadcastsInDim S256x512x64 (![] : Fin 0 → Fin S256x512x64.rank)
  reducesTo_S256x512x64_S_d0_1_2 : S256x512x64.ReducesTo [0, 1, 2] S_
  h_S_ : 0 < S_.numel

variable [Facts]

def fn {F : FTy → Type} [FloatOps F] (main_arg0 : FVec F S256x512x64 .f32) (main_arg1 : FVec F S256x512x64 .f32) (main_arg2 : FVec F S256x512x64 .f32) : IVec S_ 1 :=
  let main_v0 : FVec F S256x512x64 .f32 := Host.absf main_arg0
  let main_cst : FVec F S_ .f32 := constant S_ .f32 0x7F800000#32
  let main_v1 : FVec F S256x512x64 .f32 := broadcastInDim S256x512x64 ![] bcast_S_S256x512x64 main_cst
  let main_v2 : IVec S256x512x64 1 := cmpf .olt main_v0 main_v1
  let main_c : IVec S_ 1 := constantI S_ 1 1#1
  let main_v3 : IVec S_ 1 := (fun x v => Host.reduce IntOp.andi x v reducesTo_S256x512x64_S_d0_1_2 h_S_) main_v2 main_c
  let main_v4 : FVec F S256x512x64 .f32 := Host.absf main_arg1
  let main_cst_0 : FVec F S_ .f32 := constant S_ .f32 0x7F800000#32
  let main_v5 : FVec F S256x512x64 .f32 := broadcastInDim S256x512x64 ![] bcast_S_S256x512x64 main_cst_0
  let main_v6 : IVec S256x512x64 1 := cmpf .olt main_v4 main_v5
  let main_c_1 : IVec S_ 1 := constantI S_ 1 1#1
  let main_v7 : IVec S_ 1 := (fun x v => Host.reduce IntOp.andi x v reducesTo_S256x512x64_S_d0_1_2 h_S_) main_v6 main_c_1
  let main_v8 : IVec S_ 1 := andi main_v3 main_v7
  let main_v9 : FVec F S256x512x64 .f32 := Host.absf main_arg2
  let main_cst_2 : FVec F S_ .f32 := constant S_ .f32 0x7F800000#32
  let main_v10 : FVec F S256x512x64 .f32 := broadcastInDim S256x512x64 ![] bcast_S_S256x512x64 main_cst_2
  let main_v11 : IVec S256x512x64 1 := cmpf .olt main_v9 main_v10
  let main_c_3 : IVec S_ 1 := constantI S_ 1 1#1
  let main_v12 : IVec S_ 1 := (fun x v => Host.reduce IntOp.andi x v reducesTo_S256x512x64_S_d0_1_2 h_S_) main_v11 main_c_3
  let main_v13 : IVec S_ 1 := andi main_v8 main_v12
  main_v13
-- ==== Kernel.lean ====
abbrev S256x512x64 : Shape := ⟨3, ![256, 512, 64]⟩
abbrev S256x32768 : Shape := ⟨2, ![256, 32768]⟩
abbrev S256x512x512 : Shape := ⟨3, ![256, 512, 512]⟩
abbrev S8x512x64 : Shape := ⟨3, ![8, 512, 64]⟩
abbrev S8x32768 : Shape := ⟨2, ![8, 32768]⟩
abbrev S8x512x512 : Shape := ⟨3, ![8, 512, 512]⟩
abbrev S8x64x64 : Shape := ⟨3, ![8, 64, 64]⟩
abbrev S8x64x512 : Shape := ⟨3, ![8, 64, 512]⟩
abbrev S8x64 : Shape := ⟨2, ![8, 64]⟩
abbrev S8x64x1 : Shape := ⟨3, ![8, 64, 1]⟩

abbrev nBuf : Space → Nat
  | .hbm => 6
  | .vmem => 11
  | .smem => 0
  | _ => 0

abbrev bufTy : (tb : Table) → Fin (tcTables nBuf tb) → BufTy
  | .hbm, ⟨0, _⟩ => ⟨S256x512x64, .f32⟩
  | .hbm, ⟨1, _⟩ => ⟨S256x512x64, .f32⟩
  | .hbm, ⟨2, _⟩ => ⟨S256x512x64, .f32⟩
  | .hbm, ⟨3, _⟩ => ⟨S256x32768, .f32⟩
  | .hbm, ⟨4, _⟩ => ⟨S256x512x512, .f32⟩
  | .hbm, ⟨5, _⟩ => ⟨S256x512x64, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S8x32768, .f32⟩
  | .local _ .vmem, ⟨7, _⟩ => ⟨S8x32768, .f32⟩
  | .local _ .vmem, ⟨8, _⟩ => ⟨S8x512x512, .f32⟩
  | .local _ .vmem, ⟨9, _⟩ => ⟨S8x512x512, .f32⟩
  | .local _ .vmem, ⟨10, _⟩ => ⟨S8x512x64, .f32⟩
  | _, _ => ⟨S256x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c64_i32 : BitVec 32 := 64#32
  let v4 : BitVec 32 := Scalar.muli c0_i32 c64_i32
  v4
def k0_off1 (c0_i32 : BitVec 32) : Fin 3 → Nat :=
  let c0_5 : Index := 0#32
  let c64_i32 : BitVec 32 := 64#32
  let v4 : BitVec 32 := Scalar.muli c0_i32 c64_i32
  let v5 : BitVec 32 := v4
  let v6 : Index := Scalar.indexCast v5
  let c0_6 : Index := 0#32
  ![0, v6.toNat, 0]
def k0_off2 (c0_i32 : BitVec 32) : Fin 3 → Nat :=
  let c0_10 : Index := 0#32
  let c64_i32 : BitVec 32 := 64#32
  let v4 : BitVec 32 := Scalar.muli c0_i32 c64_i32
  let v5 : BitVec 32 := v4
  let v21 : Index := Scalar.indexCast v5
  let c0_11 : Index := 0#32
  ![0, v21.toNat, 0]
def k0_mult2 : BitVec 32 :=
  let c1_i32 : BitVec 32 := 1#32
  let c64_i32_15 : BitVec 32 := 64#32
  let v29 : BitVec 32 := Scalar.muli c1_i32 c64_i32_15
  v29
def k0_mult3 : BitVec 32 :=
  let c2_i32 : BitVec 32 := 2#32
  let c64_i32_27 : BitVec 32 := 64#32
  let v54 : BitVec 32 := Scalar.muli c2_i32 c64_i32_27
  v54
def k0_mult4 : BitVec 32 :=
  let c3_i32 : BitVec 32 := 3#32
  let c64_i32_39 : BitVec 32 := 64#32
  let v79 : BitVec 32 := Scalar.muli c3_i32 c64_i32_39
  v79
def k0_mult5 : BitVec 32 :=
  let c4_i32 : BitVec 32 := 4#32
  let c64_i32_51 : BitVec 32 := 64#32
  let v104 : BitVec 32 := Scalar.muli c4_i32 c64_i32_51
  v104
def k0_mult6 : BitVec 32 :=
  let c5_i32 : BitVec 32 := 5#32
  let c64_i32_63 : BitVec 32 := 64#32
  let v129 : BitVec 32 := Scalar.muli c5_i32 c64_i32_63
  v129
def k0_mult7 : BitVec 32 :=
  let c6_i32 : BitVec 32 := 6#32
  let c64_i32_75 : BitVec 32 := 64#32
  let v154 : BitVec 32 := Scalar.muli c6_i32 c64_i32_75
  v154
def k0_mult8 : BitVec 32 :=
  let c7_i32 : BitVec 32 := 7#32
  let c64_i32_87 : BitVec 32 := 64#32
  let v179 : BitVec 32 := Scalar.muli c7_i32 c64_i32_87
  v179
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x512x64_S8x512x64_0_0_0 : ∀ a, (![0, 0, 0] : Fin 3 → Nat) a + S8x512x64.size a ≤ S8x512x64.size a
  h_S8x512x64 : 0 < S8x512x64.numel
  bitsLt_bf16_f32 : FTy.bits .bf16 < FTy.bits .f32
  h_S8x64x64 : 0 < S8x64x64.numel
  reduces_S8x64x512_S8x64 : S8x64x512.Reduces [2] S8x64
  shapeCasts_S8x64_S8x64x1 : S8x64.ShapeCasts S8x64x1
  broadcasts_S8x64x1_S8x64x512 : S8x64x1.Broadcasts S8x64x512
  h_S8x64x512 : 0 < S8x64x512.numel
  shapeCasts_S8x64x64_S8x64x64 : S8x64x64.ShapeCasts S8x64x64
  shapeCasts_S8x512x64_S8x32768 : S8x512x64.ShapeCasts S8x32768
  inb_S8x32768_S8x32768_0_0 : ∀ a, (![0, 0] : Fin 2 → Nat) a + S8x32768.size a ≤ S8x32768.size a
  h_S8x32768 : 0 < S8x32768.numel
  shapeCasts_S256x32768_S256x512x64 : S256x32768.ShapeCasts S256x512x64
  dot_S8x64x64_S8x512x64_S8x64x512_2_2_1_1_0_0_wf : DotDims.WF S8x64x64 S8x512x64 S8x64x512 [2] [2] [1] [1] [0] [0]
  dot_S8x64x512_S8x512x64_S8x64x64_2_1_1_2_0_0_wf : DotDims.WF S8x64x512 S8x512x64 S8x64x64 [2] [1] [1] [2] [0] [0]
  hrank0 : 0 < grid0.rank
  k0_mult1_dvd : 64 ∣ k0_mult1.toNat
  k0_off1_inb : ∀ (r : Fin 8), ∀ a, (k0_off1 (BitVec.ofNat 32 r.val)) a + S8x64x64.size a ≤ S8x512x64.size a
  k0_off2_inb : ∀ (r : Fin 8), ∀ a, (k0_off2 (BitVec.ofNat 32 r.val)) a + S8x64x512.size a ≤ S8x512x512.size a
  k0_mult2_dvd : 64 ∣ k0_mult2.toNat
  k0_mult3_dvd : 64 ∣ k0_mult3.toNat
  k0_mult4_dvd : 64 ∣ k0_mult4.toNat
  k0_mult5_dvd : 64 ∣ k0_mult5.toNat
  k0_mult6_dvd : 64 ∣ k0_mult6.toNat
  k0_mult7_dvd : 64 ∣ k0_mult7.toNat
  k0_mult8_dvd : 64 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x64.size a ≤ S256x512x64.size a
  hwx0_0 : ∀ i : grid0.Coords, EltTy.bits .f32 = 32 ∨ (Rect.block (s := S256x512x64) S8x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x64.size a ≤ S256x512x64.size a
  hwx0_1 : ∀ i : grid0.Coords, EltTy.bits .f32 = 32 ∨ (Rect.block (s := S256x512x64) S8x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x64.size a ≤ S256x512x64.size a
  hwx0_2 : ∀ i : grid0.Coords, EltTy.bits .f32 = 32 ∨ (Rect.block (s := S256x512x64) S8x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32768.size a ≤ S256x32768.size a
  hwx0_3 : ∀ i : grid0.Coords, EltTy.bits .f32 = 32 ∨ (Rect.block (s := S256x32768) S8x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512x512.size a ≤ S256x512x512.size a
  hwx0_4 : ∀ i : grid0.Coords, EltTy.bits .f32 = 32 ∨ (Rect.block (s := S256x512x512) S8x512x512.size (cc0_transform_4 i) (hinb0_4 i)).WholeWords (EltTy.packing .f32)

variable [Facts₀]

def dot_S8x64x64_S8x512x64_S8x64x512_2_2_1_1_0_0 : DotDims S8x64x64 S8x512x64 S8x64x512 where
  lhsContracting := [2]
  rhsContracting := [2]
  lhsNonContracting := [1]
  rhsNonContracting := [1]
  lhsBatch := [0]
  rhsBatch := [0]
  wf := dot_S8x64x64_S8x512x64_S8x64x512_2_2_1_1_0_0_wf
def dot_S8x64x512_S8x512x64_S8x64x64_2_1_1_2_0_0 : DotDims S8x64x512 S8x512x64 S8x64x64 where
  lhsContracting := [2]
  rhsContracting := [1]
  lhsNonContracting := [1]
  rhsNonContracting := [2]
  lhsBatch := [0]
  rhsBatch := [0]
  wf := dot_S8x64x512_S8x512x64_S8x64x64_2_1_1_2_0_0_wf

abbrev win0_0 : Pipeline.Window sig grid0 :=
  Pipeline.Window.ofSpec (Memref.whole main_arg0) S8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x32768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x512x64 : Shape := ⟨3, ![256, 512, 64]⟩
abbrev S256x512x512 : Shape := ⟨3, ![256, 512, 512]⟩
abbrev S_ : Shape := ⟨0, ![]⟩
abbrev S256x512 : Shape := ⟨2, ![256, 512]⟩
abbrev S256x512x1 : Shape := ⟨3, ![256, 512, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x512x64, .f32⟩
  | .hbm, ⟨1, _⟩ => ⟨S256x512x64, .f32⟩
  | .hbm, ⟨2, _⟩ => ⟨S256x512x64, .f32⟩
  | .hbm, ⟨3, _⟩ => ⟨S256x512x512, .f32⟩
  | .hbm, ⟨4, _⟩ => ⟨S_, .f32⟩
  | .hbm, ⟨5, _⟩ => ⟨S256x512x512, .f32⟩
  | .hbm, ⟨6, _⟩ => ⟨S256x512x512, .f32⟩
  | .hbm, ⟨7, _⟩ => ⟨S_, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512x1, .f32⟩
  | .hbm, ⟨13, _⟩ => ⟨S256x512x512, .f32⟩
  | .hbm, ⟨14, _⟩ => ⟨S256x512x512, .f32⟩
  | .hbm, ⟨15, _⟩ => ⟨S256x512x512, .f32⟩
  | .hbm, ⟨16, _⟩ => ⟨S_, .f32⟩
  | .hbm, ⟨17, _⟩ => ⟨S256x512, .f32⟩
  | .hbm, ⟨18, _⟩ => ⟨S256x512x1, .f32⟩
  | .hbm, ⟨19, _⟩ => ⟨S256x512x512, .f32⟩
  | .hbm, ⟨20, _⟩ => ⟨S256x512x512, .f32⟩
  | .hbm, ⟨21, _⟩ => ⟨S256x512x64, .f32⟩
  | _, _ => ⟨S256x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S256x512x512 : S_.BroadcastsInDim S256x512x512 (![] : Fin 0 → Fin S256x512x512.rank)
  reducesTo_S256x512x512_S256x512_d2 : S256x512x512.ReducesTo [2] S256x512
  h_S_ : 0 < S_.numel
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256x512x1_S256x512x512_0_1_2 : S256x512x1.BroadcastsInDim S256x512x512 (![0, 1, 2] : Fin 3 → Fin S256x512x512.rank)
  dot_S256x512x64_S256x512x64_S256x512x512_2_2_1_1_0_0_wf : DotDims.WF S256x512x64 S256x512x64 S256x512x512 [2] [2] [1] [1] [0] [0]
  dot_S256x512x512_S256x512x64_S256x512x64_2_1_1_2_0_0_wf : DotDims.WF S256x512x512 S256x512x64 S256x512x64 [2] [1] [1] [2] [0] [0]

variable [Facts₀]

def dot_S256x512x64_S256x512x64_S256x512x512_2_2_1_1_0_0 : DotDims S256x512x64 S256x512x64 S256x512x512 where
  lhsContracting := [2]
  rhsContracting := [2]
  lhsNonContracting := [1]
  rhsNonContracting := [1]
  lhsBatch := [0]
  rhsBatch := [0]
  wf := dot_S256x512x64_S256x512x64_S256x512x512_2_2_1_1_0_0_wf
def dot_S256x512x512_S256x512x64_S256x512x64_2_1_1_2_0_0 : DotDims S256x512x512 S256x512x64 S256x512x64 where
  lhsContracting := [2]
  rhsContracting := [1]
  lhsNonContracting := [1]
  rhsNonContracting := [2]
  lhsBatch := [0]
  rhsBatch := [0]
  wf := dot_S256x512x512_S256x512x64_S256x512x64_2_1_1_2_0_0_wf

class Facts : Prop extends Facts₀ where

variable [Facts]
-- ==== Proof.Spec.lean ====
/-
  The mathematics both programs compute, stated once over the extended reals and over generic extents.

  For query rows `q[b, t, ·]`, key rows `k[b, s, ·]` and value rows `v[b, s, ·]`:
    score b t s = (∑ d, q[b,t,d] · k[b,s,d]) · c          (c the f32 word for 0.125)
    rowMax b t  = the fold of `max` over s of the scores, from the f32 word for −∞
    num b t s   = exp (score b t s − rowMax b t)
    den b t     = ∑ s, num b t s
    prob b t s  = num b t s / den b t                      (the softmax row)
    mix b t e   = ∑ s, prob b t s · v[b,s,e]               (the attention output)

  A row of `prob` or `mix` depends on `q` only through the one query row `(b, t)` and on `k`, `v` only through batch
  `b`: the congruence lemmas below say so. That is what lets a block of eight batches and a chunk of sixty-four
  query rows be computed on its own and still be the restriction of the whole arrays' result.

  Two scalar facts join the two programs' spellings: multiplying by the word for 0.125 is dividing by the word
  for 8 on every extended real, and a fold of `max` is never below the value it starts from.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

variable {B T S D E : Nat}

/-- The scaled score of query row `(b, t)` against key row `(b, s)`. -/
def score (q : (⟨3, ![B, T, D]⟩ : Shape).Idx → EReal) (k : (⟨3, ![B, S, D]⟩ : Shape).Idx → EReal)
    (b : Fin B) (t : Fin T) (s : Fin S) : EReal :=
  (∑ d : Fin D, q (ix3 b t d) * k (ix3 b s d)) * Ideal.ofBits .f32 0x3E000000#32

/-- The largest score of query row `(b, t)`, folded from the word for −∞. -/
def rowMax (q : (⟨3, ![B, T, D]⟩ : Shape).Idx → EReal) (k : (⟨3, ![B, S, D]⟩ : Shape).Idx → EReal)
    (b : Fin B) (t : Fin T) : EReal :=
  (Finset.univ : Finset (Fin S)).fold max (Ideal.ofBits .f32 0xFF800000#32) (fun s => score q k b t s)

/-- The softmax numerator. -/
def num (q : (⟨3, ![B, T, D]⟩ : Shape).Idx → EReal) (k : (⟨3, ![B, S, D]⟩ : Shape).Idx → EReal)
    (b : Fin B) (t : Fin T) (s : Fin S) : EReal :=
  Ideal.exp (score q k b t s - rowMax q k b t)

/-- The softmax denominator of query row `(b, t)`. -/
def den (q : (⟨3, ![B, T, D]⟩ : Shape).Idx → EReal) (k : (⟨3, ![B, S, D]⟩ : Shape).Idx → EReal)
    (b : Fin B) (t : Fin T) : EReal :=
  ∑ s : Fin S, num q k b t s

/-- The attention probability: the softmax of query row `(b, t)` at key `s`. -/
def prob (q : (⟨3, ![B, T, D]⟩ : Shape).Idx → EReal) (k : (⟨3, ![B, S, D]⟩ : Shape).Idx → EReal)
    (b : Fin B) (t : Fin T) (s : Fin S) : EReal :=
  Ideal.div (num q k b t s) (den q k b t)

/-- The attention output: the probabilities of row `(b, t)` mixing the value rows of batch `b`. -/
def mix (q : (⟨3, ![B, T, D]⟩ : Shape).Idx → EReal) (k : (⟨3, ![B, S, D]⟩ : Shape).Idx → EReal)
    (v : (⟨3, ![B, S, E]⟩ : Shape).Idx → EReal) (b : Fin B) (t : Fin T) (e : Fin E) : EReal :=
  ∑ s : Fin S, prob q k b t s * v (ix3 b s e)

/-- The probabilities as one array `[B, T, S]`. -/
def probArr (q : (⟨3, ![B, T, D]⟩ : Shape).Idx → EReal) (k : (⟨3, ![B, S, D]⟩ : Shape).Idx → EReal) :
    (⟨3, ![B, T, S]⟩ : Shape).Idx → EReal :=
  fun i => prob q k (i 0) (i 1) (i 2)

/-- The attention output as one array `[B, T, E]`. -/
def mixArr (q : (⟨3, ![B, T, D]⟩ : Shape).Idx → EReal) (k : (⟨3, ![B, S, D]⟩ : Shape).Idx → EReal)
    (v : (⟨3, ![B, S, E]⟩ : Shape).Idx → EReal) : (⟨3, ![B, T, E]⟩ : Shape).Idx → EReal :=
  fun i => mix q k v (i 0) (i 1) (i 2)

/-! ## A row depends only on its own query row and its batch's keys and values -/

section Congr

variable {B' T' : Nat}
variable (q : (⟨3, ![B, T, D]⟩ : Shape).Idx → EReal) (k : (⟨3, ![B, S, D]⟩ : Shape).Idx → EReal)
  (v : (⟨3, ![B, S, E]⟩ : Shape).Idx → EReal)
  (q' : (⟨3, ![B', T', D]⟩ : Shape).Idx → EReal) (k' : (⟨3, ![B', S, D]⟩ : Shape).Idx → EReal)
  (v' : (⟨3, ![B', S, E]⟩ : Shape).Idx → EReal)
  (b : Fin B) (t : Fin T) (b' : Fin B') (t' : Fin T')

theorem score_congr (hq : ∀ d, q' (ix3 b' t' d) = q (ix3 b t d)) (hk : ∀ s d, k' (ix3 b' s d) = k (ix3 b s d))
    (s : Fin S) : score q' k' b' t' s = score q k b t s := by
  unfold score
  exact congrArg (· * _) (Finset.sum_congr rfl fun d _ => by rw [hq d, hk s d])

theorem rowMax_congr (hq : ∀ d, q' (ix3 b' t' d) = q (ix3 b t d)) (hk : ∀ s d, k' (ix3 b' s d) = k (ix3 b s d)) :
    rowMax q' k' b' t' = rowMax q k b t := by
  unfold rowMax
  exact congrArg (fun f => (Finset.univ : Finset (Fin S)).fold max _ f)
    (funext fun s => score_congr q k q' k' b t b' t' hq hk s)

theorem num_congr (hq : ∀ d, q' (ix3 b' t' d) = q (ix3 b t d)) (hk : ∀ s d, k' (ix3 b' s d) = k (ix3 b s d))
    (s : Fin S) : num q' k' b' t' s = num q k b t s := by
  unfold num
  rw [score_congr q k q' k' b t b' t' hq hk s, rowMax_congr q k q' k' b t b' t' hq hk]

theorem den_congr (hq : ∀ d, q' (ix3 b' t' d) = q (ix3 b t d)) (hk : ∀ s d, k' (ix3 b' s d) = k (ix3 b s d)) :
    den q' k' b' t' = den q k b t := by
  unfold den
  exact Finset.sum_congr rfl fun s _ => num_congr q k q' k' b t b' t' hq hk s

theorem prob_congr (hq : ∀ d, q' (ix3 b' t' d) = q (ix3 b t d)) (hk : ∀ s d, k' (ix3 b' s d) = k (ix3 b s d))
    (s : Fin S) : prob q' k' b' t' s = prob q k b t s := by
  unfold prob
  rw [num_congr q k q' k' b t b' t' hq hk s, den_congr q k q' k' b t b' t' hq hk]

theorem mix_congr (hq : ∀ d, q' (ix3 b' t' d) = q (ix3 b t d)) (hk : ∀ s d, k' (ix3 b' s d) = k (ix3 b s d))
    (hv : ∀ s e, v' (ix3 b' s e) = v (ix3 b s e)) (e : Fin E) :
    mix q' k' v' b' t' e = mix q k v b t e := by
  unfold mix
  exact Finset.sum_congr rfl fun s _ => by rw [prob_congr q k q' k' b t b' t' hq hk s, hv s e]

end Congr

/-! ## The two scalar facts -/

/-- The f32 word `0x41000000` denotes the real 8. -/
theorem ofBits_eight : Ideal.ofBits .f32 0x41000000#32 = ((8 : ℝ) : EReal) := by
  simp [Ideal.ofBits, Ideal.ieee, -EReal.coe_mul]; norm_num

/-- The f32 word `0x3E000000` denotes the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (x : EReal) :
    Ideal.div x (Ideal.ofBits .f32 0x41000000#32) = x * Ideal.ofBits .f32 0x3E000000#32 := by
  rw [ofBits_eight, ofBits_eighth]
  exact Ideal.div_coe (by norm_num) x

/-- A fold of `max` is at least the value it starts from, so taking `max` with that value again changes nothing. -/
theorem max_init_fold {ι : Type*} (s : Finset ι) (init : EReal) (f : ι → EReal) :
    max init (s.fold max init f) = s.fold max init f :=
  max_eq_right ((Finset.le_fold_max init).2 (Or.inl le_rfl))

end Cert.Attn

end
-- ==== Proof.Chunk.lean ====
/-
  One chunk of sixty-four query rows inside a block of eight batches, at the ideal instance.

  The kernel body handles its 512 query rows in eight chunks; every chunk runs the same two computations —
  the softmax rows of the chunk against all 512 keys of the block, and those rows mixing the block's value rows.
  The body's pure terms for the eight chunks are spelt with different intermediate names but are, definitionally,
  three functions: the cast of a loaded chunk to bf16, the softmax chunk of a key block and a query chunk, and
  the mix of a probability chunk with a value block. The first section says so, at any float instance.

  At the ideal instance a cast is the identity, a matrix product into a zero accumulator is the plain sum of
  products over the contracted axis, a lane maximum is the fold of `max` over the lane from its initial word, a lane
  sum is the sum over the lane, and the keep-dims cast and broadcast read a row's value at every lane. Read at an
  index `(b, r, s)` the softmax chunk is therefore the attention probability of the specification, with the chunk
  as the query array and the block as the key array; and the mix at `(b, r, e)` is the sum over the keys of
  probability times value.
-/
import proofs.«176236_j73942156968094_2_alg».proof.Proof.Gen.KernelIdeal.Skeleton
import proofs.«176236_j73942156968094_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx

/-! ## The eight chunks' terms are three functions -/

section Names

variable {F : FTy → Type} [FloatOps F]

theorem cast15_eq (x : Vec F S8x64x64 .f32) : k0_pay15 x = k0_pay8 x := rfl
theorem cast22_eq (x : Vec F S8x64x64 .f32) : k0_pay22 x = k0_pay8 x := rfl

theorem soft6_eq (k : Vec F S8x512x64 .f32) (x : Vec F S8x64x64 .f32) :
    k0_pay6 k x = k0_pay1 (k0_pay4 k) (k0_pay8 x) := rfl
theorem soft9_eq (kb : FVec F S8x512x64 .bf16) (qb : FVec F S8x64x64 .bf16) : k0_pay9 kb qb = k0_pay1 kb qb := rfl
theorem soft11_eq (kb : FVec F S8x512x64 .bf16) (x : Vec F S8x64x64 .f32) : k0_pay11 kb x = k0_pay1 kb (k0_pay8 x) := rfl
theorem soft13_eq (kb : FVec F S8x512x64 .bf16) (x : Vec F S8x64x64 .f32) : k0_pay13 kb x = k0_pay1 kb (k0_pay8 x) := rfl
theorem soft16_eq (kb : FVec F S8x512x64 .bf16) (qb : FVec F S8x64x64 .bf16) : k0_pay16 kb qb = k0_pay1 kb qb := rfl
theorem soft18_eq (kb : FVec F S8x512x64 .bf16) (x : Vec F S8x64x64 .f32) : k0_pay18 kb x = k0_pay1 kb (k0_pay8 x) := rfl
theorem soft20_eq (kb : FVec F S8x512x64 .bf16) (x : Vec F S8x64x64 .f32) : k0_pay20 kb x = k0_pay1 kb (k0_pay8 x) := rfl

theorem mix2_eq (kb vb : FVec F S8x512x64 .bf16) (qb : FVec F S8x64x64 .bf16) :
    k0_pay2 kb vb qb = k0_pay12 vb (k0_pay1 kb qb) := rfl
theorem mix7_eq (k v : Vec F S8x512x64 .f32) (x : Vec F S8x64x64 .f32) :
    k0_pay7 k v x = k0_pay12 (k0_pay5 v) (k0_pay1 (k0_pay4 k) (k0_pay8 x)) := rfl
theorem mix10_eq (kb vb : FVec F S8x512x64 .bf16) (qb : FVec F S8x64x64 .bf16) :
    k0_pay10 kb vb qb = k0_pay12 vb (k0_pay1 kb qb) := rfl
theorem mix14_eq (kb vb : FVec F S8x512x64 .bf16) (x : Vec F S8x64x64 .f32) :
    k0_pay14 kb vb x = k0_pay12 vb (k0_pay1 kb (k0_pay8 x)) := rfl
theorem mix17_eq (kb vb : FVec F S8x512x64 .bf16) (qb : FVec F S8x64x64 .bf16) :
    k0_pay17 kb vb qb = k0_pay12 vb (k0_pay1 kb qb) := rfl
theorem mix19_eq (vb : FVec F S8x512x64 .bf16) (a : FVec F S8x64x512 .f32) : k0_pay19 vb a = k0_pay12 vb a := rfl
theorem mix21_eq (kb vb : FVec F S8x512x64 .bf16) (x : Vec F S8x64x64 .f32) :
    k0_pay21 kb vb x = k0_pay12 vb (k0_pay1 kb (k0_pay8 x)) := rfl

end Names

/-! ## At the ideal instance: the casts, the two products -/

theorem castQ_apply (x : Vec Ideal S8x64x64 .f32) (i : S8x64x64.Idx) : k0_pay8 (F := Ideal) x i = x i := rfl
theorem castK_apply (x : Vec Ideal S8x512x64 .f32) (i : S8x512x64.Idx) : k0_pay4 (F := Ideal) x i = x i := rfl
theorem castV_apply (x : Vec Ideal S8x512x64 .f32) (i : S8x512x64.Idx) : k0_pay5 (F := Ideal) x i = x i := rfl

/-! ### The two products' operand indices, axis by axis -/

theorem lhsS_0 (i : S8x64x512.Idx) (q : dot_S8x64x64_S8x512x64_S8x64x512_2_2_1_1_0_0.contr.Idx) : (dot_S8x64x64_S8x512x64_S8x64x512_2_2_1_1_0_0.lhsIdx i q 0).val = (i 0).val := by
  unfold DotDims.lhsIdx
  rw [dif_pos (show (0 : Fin S8x64x64.rank) ∈ dot_S8x64x64_S8x512x64_S8x64x512_2_2_1_1_0_0.lhsBatch by decide)]
  rfl
theorem lhsS_1 (i : S8x64x512.Idx) (q : dot_S8x64x64_S8x512x64_S8x64x512_2_2_1_1_0_0.contr.Idx) : (dot_S8x64x64_S8x512x64_S8x64x512_2_2_1_1_0_0.lhsIdx i q 1).val = (i 1).val := by
  unfold DotDims.lhsIdx
  rw [dif_neg (show ¬(1 : Fin S8x64x64.rank) ∈ dot_S8x64x64_S8x512x64_S8x64x512_2_2_1_1_0_0.lhsBatch by decide),
    dif_pos (show (1 : Fin S8x64x64.rank) ∈ dot_S8x64x64_S8x512x64_S8x64x512_2_2_1_1_0_0.lhsNonContracting by decide)]
  rfl
theorem lhsS_2 (i : S8x64x512.Idx) (q : dot_S8x64x64_S8x512x64_S8x64x512_2_2_1_1_0_0.contr.Idx) : (dot_S8x64x64_S8x512x64_S8x64x512_2_2_1_1_0_0.lhsIdx i q 2).val = (q ⟨0, by decide⟩).val :=
  dot_S8x64x64_S8x512x64_S8x64x512_2_2_1_1_0_0.lhsIdx_val_of_single rfl i q
theorem rhsS_0 (i : S8x64x512.Idx) (q : dot_S8x64x64_S8x512x64_S8x64x512_2_2_1_1_0_0.contr.Idx) : (dot_S8x64x64_S8x512x64_S8x64x512_2_2_1_1_0_0.rhsIdx i q 0).val = (i 0).val := by
  unfold DotDims.rhsIdx
  rw [dif_pos (show (0 : Fin S8x512x64.rank) ∈ dot_S8x64x64_S8x512x64_S8x64x512_2_2_1_1_0_0.rhsBatch by decide)]
  rfl
theorem rhsS_1 (i : S8x64x512.Idx) (q : dot_S8x64x64_S8x512x64_S8x64x512_2_2_1_1_0_0.contr.Idx) : (dot_S8x64x64_S8x512x64_S8x64x512_2_2_1_1_0_0.rhsIdx i q 1).val = (i 2).val := by
  unfold DotDims.rhsIdx
  rw [dif_neg (show ¬(1 : Fin S8x512x64.rank) ∈ dot_S8x64x64_S8x512x64_S8x64x512_2_2_1_1_0_0.rhsBatch by decide),
    dif_pos (show (1 : Fin S8x512x64.rank) ∈ dot_S8x64x64_S8x512x64_S8x64x512_2_2_1_1_0_0.rhsNonContracting by decide)]
  rfl
theorem rhsS_2 (i : S8x64x512.Idx) (q : dot_S8x64x64_S8x512x64_S8x64x512_2_2_1_1_0_0.contr.Idx) : (dot_S8x64x64_S8x512x64_S8x64x512_2_2_1_1_0_0.rhsIdx i q 2).val = (q ⟨0, by decide⟩).val :=
  dot_S8x64x64_S8x512x64_S8x64x512_2_2_1_1_0_0.rhsIdx_val_of_single rfl i q

theorem lhsM_0 (i : S8x64x64.Idx) (q : dot_S8x64x512_S8x512x64_S8x64x64_2_1_1_2_0_0.contr.Idx) : (dot_S8x64x512_S8x512x64_S8x64x64_2_1_1_2_0_0.lhsIdx i q 0).val = (i 0).val := by
  unfold DotDims.lhsIdx
  rw [dif_pos (show (0 : Fin S8x64x512.rank) ∈ dot_S8x64x512_S8x512x64_S8x64x64_2_1_1_2_0_0.lhsBatch by decide)]
  rfl
theorem lhsM_1 (i : S8x64x64.Idx) (q : dot_S8x64x512_S8x512x64_S8x64x64_2_1_1_2_0_0.contr.Idx) : (dot_S8x64x512_S8x512x64_S8x64x64_2_1_1_2_0_0.lhsIdx i q 1).val = (i 1).val := by
  unfold DotDims.lhsIdx
  rw [dif_neg (show ¬(1 : Fin S8x64x512.rank) ∈ dot_S8x64x512_S8x512x64_S8x64x64_2_1_1_2_0_0.lhsBatch by decide),
    dif_pos (show (1 : Fin S8x64x512.rank) ∈ dot_S8x64x512_S8x512x64_S8x64x64_2_1_1_2_0_0.lhsNonContracting by decide)]
  rfl
theorem lhsM_2 (i : S8x64x64.Idx) (q : dot_S8x64x512_S8x512x64_S8x64x64_2_1_1_2_0_0.contr.Idx) : (dot_S8x64x512_S8x512x64_S8x64x64_2_1_1_2_0_0.lhsIdx i q 2).val = (q ⟨0, by decide⟩).val :=
  dot_S8x64x512_S8x512x64_S8x64x64_2_1_1_2_0_0.lhsIdx_val_of_single rfl i q
theorem rhsM_0 (i : S8x64x64.Idx) (q : dot_S8x64x512_S8x512x64_S8x64x64_2_1_1_2_0_0.contr.Idx) : (dot_S8x64x512_S8x512x64_S8x64x64_2_1_1_2_0_0.rhsIdx i q 0).val = (i 0).val := by
  unfold DotDims.rhsIdx
  rw [dif_pos (show (0 : Fin S8x512x64.rank) ∈ dot_S8x64x512_S8x512x64_S8x64x64_2_1_1_2_0_0.rhsBatch by decide)]
  rfl
theorem rhsM_1 (i : S8x64x64.Idx) (q : dot_S8x64x512_S8x512x64_S8x64x64_2_1_1_2_0_0.contr.Idx) : (dot_S8x64x512_S8x512x64_S8x64x64_2_1_1_2_0_0.rhsIdx i q 1).val = (q ⟨0, by decide⟩).val :=
  dot_S8x64x512_S8x512x64_S8x64x64_2_1_1_2_0_0.rhsIdx_val_of_single rfl i q
theorem rhsM_2 (i : S8x64x64.Idx) (q : dot_S8x64x512_S8x512x64_S8x64x64_2_1_1_2_0_0.contr.Idx) : (dot_S8x64x512_S8x512x64_S8x64x64_2_1_1_2_0_0.rhsIdx i q 2).val = (i 2).val := by
  unfold DotDims.rhsIdx
  rw [dif_neg (show ¬(2 : Fin S8x512x64.rank) ∈ dot_S8x64x512_S8x512x64_S8x64x64_2_1_1_2_0_0.rhsBatch by decide),
    dif_pos (show (2 : Fin S8x512x64.rank) ∈ dot_S8x64x512_S8x512x64_S8x64x64_2_1_1_2_0_0.rhsNonContracting by decide)]
  rfl

/-- The score product: query chunk times key block, contracted over the head dimension, batched over the block. -/
theorem scores_apply (qb : FVec Ideal S8x64x64 .bf16) (kb : FVec Ideal S8x512x64 .bf16)
    (b : Fin 8) (r : Fin 64) (s : Fin 512) :
    FloatOps.matmul dot_S8x64x64_S8x512x64_S8x64x512_2_2_1_1_0_0 none qb kb (constant S8x64x512 .f32 0x00000000#32) (ix3 b r s)
      = ∑ d : Fin 64, qb (ix3 b r d) * kb (ix3 b s d) := by
  rw [Ideal.matmul_constant_zero_apply, ← Equiv.sum_comp (contrEquiv1 dot_S8x64x64_S8x512x64_S8x64x512_2_2_1_1_0_0 64 rfl rfl).symm]
  refine Finset.sum_congr rfl fun k _ => ?_
  have hk := contrEquiv1_symm_val dot_S8x64x64_S8x512x64_S8x64x512_2_2_1_1_0_0 64 rfl rfl k
  have el : dot_S8x64x64_S8x512x64_S8x64x512_2_2_1_1_0_0.lhsIdx (ix3 b r s) ((contrEquiv1 dot_S8x64x64_S8x512x64_S8x64x512_2_2_1_1_0_0 64 rfl rfl).symm k) = ix3 b r k :=
    funext fun a => Fin.ext (by
      match a with
      | ⟨0, _⟩ => exact lhsS_0 _ _
      | ⟨1, _⟩ => exact lhsS_1 _ _
      | ⟨2, _⟩ => exact (lhsS_2 _ _).trans hk)
  have er : dot_S8x64x64_S8x512x64_S8x64x512_2_2_1_1_0_0.rhsIdx (ix3 b r s) ((contrEquiv1 dot_S8x64x64_S8x512x64_S8x64x512_2_2_1_1_0_0 64 rfl rfl).symm k) = ix3 b s k :=
    funext fun a => Fin.ext (by
      match a with
      | ⟨0, _⟩ => exact rhsS_0 _ _
      | ⟨1, _⟩ => exact rhsS_1 _ _
      | ⟨2, _⟩ => exact (rhsS_2 _ _).trans hk)
  rw [el, er]

/-- The mixing product: probability chunk times value block, contracted over the keys, batched over the block. -/
theorem mixprod_apply (a : FVec Ideal S8x64x512 .bf16) (vb : FVec Ideal S8x512x64 .bf16)
    (b : Fin 8) (r : Fin 64) (e : Fin 64) :
    FloatOps.matmul dot_S8x64x512_S8x512x64_S8x64x64_2_1_1_2_0_0 none a vb (constant S8x64x64 .f32 0x00000000#32) (ix3 b r e)
      = ∑ s : Fin 512, a (ix3 b r s) * vb (ix3 b s e) := by
  rw [Ideal.matmul_constant_zero_apply, ← Equiv.sum_comp (contrEquiv1 dot_S8x64x512_S8x512x64_S8x64x64_2_1_1_2_0_0 512 rfl rfl).symm]
  refine Finset.sum_congr rfl fun k _ => ?_
  have hk := contrEquiv1_symm_val dot_S8x64x512_S8x512x64_S8x64x64_2_1_1_2_0_0 512 rfl rfl k
  have el : dot_S8x64x512_S8x512x64_S8x64x64_2_1_1_2_0_0.lhsIdx (ix3 b r e) ((contrEquiv1 dot_S8x64x512_S8x512x64_S8x64x64_2_1_1_2_0_0 512 rfl rfl).symm k) = ix3 b r k :=
    funext fun c => Fin.ext (by
      match c with
      | ⟨0, _⟩ => exact lhsM_0 _ _
      | ⟨1, _⟩ => exact lhsM_1 _ _
      | ⟨2, _⟩ => exact (lhsM_2 _ _).trans hk)
  have er : dot_S8x64x512_S8x512x64_S8x64x64_2_1_1_2_0_0.rhsIdx (ix3 b r e) ((contrEquiv1 dot_S8x64x512_S8x512x64_S8x64x64_2_1_1_2_0_0 512 rfl rfl).symm k) = ix3 b k e :=
    funext fun c => Fin.ext (by
      match c with
      | ⟨0, _⟩ => exact rhsM_0 _ _
      | ⟨1, _⟩ => exact (rhsM_1 _ _).trans hk
      | ⟨2, _⟩ => exact rhsM_2 _ _)
  rw [el, er]

/-! ## The softmax of a score block along its last axis -/

/-- The body's softmax, as a function of the score block alone: the lane maximum kept as a column and broadcast
    back, the exponentials of the differences, their lane sum kept as a column and broadcast back, the quotient. -/
def softRows {F : FTy → Type} [FloatOps F] (sc : FVec F S8x64x512 .f32) : FVec F S8x64x512 .f32 :=
  have m : FVec F S8x64 .f32 := multiReduction .maximumf [2] S8x64 sc 0xFF800000#32 reduces_S8x64x512_S8x64 (.inl rfl) rfl
  have mb : FVec F S8x64x512 .f32 :=
    broadcastTo S8x64x512 (shapeCast S8x64x1 m shapeCasts_S8x64_S8x64x1) broadcasts_S8x64x1_S8x64x512
  have p : FVec F S8x64x512 .f32 := exp (subf sc mb)
  have l : FVec F S8x64 .f32 := multiReduction .add [2] S8x64 p 0x00000000#32 reduces_S8x64x512_S8x64 (.inl rfl) rfl
  have lb : FVec F S8x64x512 .f32 :=
    broadcastTo S8x64x512 (shapeCast S8x64x1 l shapeCasts_S8x64_S8x64x1) broadcasts_S8x64x1_S8x64x512
  divf p lb

/-- The softmax chunk is the softmax of the scaled score product. -/
theorem soft_eq_softRows {F : FTy → Type} [FloatOps F] (kb : FVec F S8x512x64 .bf16) (qb : FVec F S8x64x64 .bf16) :
    k0_pay1 kb qb = softRows (mulf (matmul dot_S8x64x64_S8x512x64_S8x64x512_2_2_1_1_0_0 none qb kb (constant S8x64x512 .f32 0x00000000#32))
      (broadcast S8x64x512 (Scalar.ofBits .f32 0x3E000000#32))) := rfl

/-- Row `(b, r)` of the block with lane `s` put back: the index the one-axis reduction reads. -/
theorem lift_eq (b : Fin 8) (r : Fin 64) (s : Fin 512) :
    reduces_S8x64x512_S8x64.lift (ix2 b r) s = ix3 b r s :=
  funext fun a => Fin.ext (by match a with | ⟨0, _⟩ => rfl | ⟨1, _⟩ => rfl | ⟨2, _⟩ => rfl)

/-- A lane maximum at row `(b, r)`: the fold of `max` over the row's 512 lanes from the word for −∞. -/
theorem laneMax_apply (v : FVec Ideal S8x64x512 .f32) (hφ : FKind.Formats .f32)
    (hacc : (0xFF800000#32 : BitVec 32) = 0xFF800000#32) (b : Fin 8) (r : Fin 64) :
    multiReduction .maximumf [2] S8x64 v 0xFF800000#32 reduces_S8x64x512_S8x64 hφ hacc (ix2 b r)
      = (Finset.univ : Finset (Fin 512)).fold max (Ideal.ofBits .f32 0xFF800000#32) (fun s => v (ix3 b r s)) :=
  (Ideal.multiReduction_maximumf_single v 0xFF800000#32 reduces_S8x64x512_S8x64 hφ hacc (ix2 b r)).trans
    (congrArg (fun f => (Finset.univ : Finset (Fin 512)).fold max (Ideal.ofBits .f32 0xFF800000#32) f)
      (funext fun s => congrArg v (lift_eq b r s)))

/-- A lane sum at row `(b, r)`: the sum over the row's 512 lanes. -/
theorem laneSum_apply (v : FVec Ideal S8x64x512 .f32) (hφ : FKind.Formats .f32)
    (hacc : (0x00000000#32 : BitVec 32) = 0x00000000#32) (b : Fin 8) (r : Fin 64) :
    multiReduction .add [2] S8x64 v 0x00000000#32 reduces_S8x64x512_S8x64 hφ hacc (ix2 b r)
      = ∑ s : Fin 512, v (ix3 b r s) :=
  (Ideal.multiReduction_add_single v 0x00000000#32 reduces_S8x64x512_S8x64 hφ hacc (ix2 b r)).trans
    (Finset.sum_congr rfl fun s _ => congrArg v (lift_eq b r s))

/-- A per-row value kept as a column `[8, 64, 1]` and broadcast along the lanes reads the row's value at every lane. -/
theorem column_apply {α : Type} (w : S8x64.Idx → α) (b : Fin 8) (r : Fin 64) (s : Fin 512) :
    broadcastTo S8x64x512 (shapeCast S8x64x1 w shapeCasts_S8x64_S8x64x1) broadcasts_S8x64x1_S8x64x512 (ix3 b r s)
      = w (ix2 b r) := by
  refine (broadcastTo_apply _ broadcasts_S8x64x1_S8x64x512 (ix3 b r s) (ix3 b r (0 : Fin 1)) fun a => ?_).trans ?_
  · match a with
    | ⟨0, _⟩ => show b.val = if (8 : Nat) = 1 then 0 else b.val; rw [if_neg (by decide)]
    | ⟨1, _⟩ => show r.val = if (64 : Nat) = 1 then 0 else r.val; rw [if_neg (by decide)]
    | ⟨2, _⟩ => show 0 = if (1 : Nat) = 1 then 0 else s.val; rw [if_pos rfl]
  · exact shapeCast_apply w shapeCasts_S8x64_S8x64x1 (ix3 b r (0 : Fin 1)) (ix2 b r) (by
      rw [Shape.rowMajor_val_three, Shape.rowMajor_val_two]
      show b.val * 64 + r.val = (b.val * 64 + r.val) * 1 + 0
      omega)

theorem exp_apply {s : Shape} {φ : FTy} (a : FVec Ideal s φ) (i : s.Idx) : exp a i = Ideal.exp (a i) := rfl

/-- The softmax of a score block at `(b, r, s)`: over the extended reals, the exponential of the score less the
    row's maximum, divided by the row's sum of such exponentials. -/
theorem softRows_apply (sc : FVec Ideal S8x64x512 .f32) (b : Fin 8) (r : Fin 64) (s : Fin 512) :
    softRows (F := Ideal) sc (ix3 b r s)
      = Ideal.div
          (Ideal.exp (sc (ix3 b r s)
            - (Finset.univ : Finset (Fin 512)).fold max (Ideal.ofBits .f32 0xFF800000#32) (fun s' => sc (ix3 b r s'))))
          (∑ s'' : Fin 512, Ideal.exp (sc (ix3 b r s'')
            - (Finset.univ : Finset (Fin 512)).fold max (Ideal.ofBits .f32 0xFF800000#32) (fun s' => sc (ix3 b r s')))) := by
  simp only [softRows, divf_apply, exp_apply, subf_apply, column_apply]
  rw [laneMax_apply sc _ _ b r, laneSum_apply]
  simp only [exp_apply, subf_apply, column_apply]
  rw [laneMax_apply sc _ _ b r]

/-- The softmax chunk at `(b, r, s)` is the specification's attention probability, the chunk as the query array. -/
theorem soft_apply (kb : FVec Ideal S8x512x64 .bf16) (qb : FVec Ideal S8x64x64 .bf16) (b : Fin 8) (r : Fin 64) (s : Fin 512) :
    k0_pay1 (F := Ideal) kb qb (ix3 b r s) = Cert.Attn.prob qb kb b r s := by
  have hsc : ∀ s' : Fin 512,
      (mulf (matmul dot_S8x64x64_S8x512x64_S8x64x512_2_2_1_1_0_0 none qb kb (constant S8x64x512 .f32 0x00000000#32))
        (broadcast S8x64x512 (Scalar.ofBits .f32 0x3E000000#32)) : FVec Ideal S8x64x512 .f32) (ix3 b r s')
        = Cert.Attn.score qb kb b r s' := fun s' => by
    show FloatOps.matmul dot_S8x64x64_S8x512x64_S8x64x512_2_2_1_1_0_0 none qb kb (constant S8x64x512 .f32 0x00000000#32) (ix3 b r s')
      * Ideal.ofBits .f32 0x3E000000#32 = _
    rw [scores_apply]; rfl
  rw [soft_eq_softRows, softRows_apply]
  simp only [hsc]
  rfl

/-- The mix of a probability chunk with a value block at `(b, r, e)`: the sum over the keys. -/
theorem mix_apply (vb : FVec Ideal S8x512x64 .bf16) (a : FVec Ideal S8x64x512 .f32) (b : Fin 8) (r : Fin 64) (e : Fin 64) :
    k0_pay12 (F := Ideal) vb a (ix3 b r e) = ∑ s : Fin 512, a (ix3 b r s) * vb (ix3 b s e) := by
  unfold k0_pay12
  simp only [shapeCast_self]
  exact mixprod_apply (truncf .bf16 a bitsLt_bf16_f32) vb b r e

end Cert.KernelIdeal.Chunk

end
-- ==== Proof.Block.lean ====
/-
  What one grid point's body leaves in its two output blocks, at the ideal instance, as functions of the point's
  three input blocks (eight batches of queries, keys and values).

  The attention block `[8, 512, 512]` is stored in eight pieces, one per chunk of sixty-four query rows; the piece at
  row offset `o` holds the softmax chunk of the query rows `o … o + 63`. A softmax row depends only on its own query
  row and on its batch's keys, so each piece is the restriction of ONE function of the whole block — the
  specification's probability with the block's queries and keys — and the eight pieces, which tile the block, leave
  that function.

  The output block is written once, as the flat `[8, 32768]` view of a scratch `[8, 512, 64]` that the same eight
  chunks filled with their mixes; a load of the whole scratch after the eight covering stores reads, piece by
  piece, the specification's mix with the block's queries, keys and values.
-/
import proofs.«176236_j73942156968094_2_alg».proof.Proof.Gen.KernelIdeal.Frame
import proofs.«176236_j73942156968094_2_alg».proof.Proof.Chunk
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Chunk
open Idealize.ShloMosaic Idealize.ShloMosaic.TcCoe Idealize.ShloMosaic.ValueIdx Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-- The block's attention probabilities: the specification over the block's queries and keys. -/
def blockAttn (x0 x1 : Vec Ideal S8x512x64 .f32) : Vec Ideal S8x512x512 .f32 :=
  fun y => Cert.Attn.prob x0 x1 (y 0) (y 1) (y 2)

/-- The block's attention output: the specification over the block's queries, keys and values. -/
def blockMix (x0 x1 x2 : Vec Ideal S8x512x64 .f32) : Vec Ideal S8x512x64 .f32 :=
  fun y => Cert.Attn.mix x0 x1 x2 (y 0) (y 1) (y 2)

/-- Sixty-four rows of a block from row `o`, read at `(b, r, d)`: the block at row `o + r`. -/
theorem chunk_ld (x0 : Vec Ideal S8x512x64 .f32) (o : Nat)
    (inbQ : ∀ a, (![0, o, 0] : Fin 3 → Nat) a + (![8, 64, 64] : Fin 3 → Nat) a ≤ S8x512x64.size a)
    (b : Fin 8) (r : Fin 64) (d : Fin 64) (ho : o + r.val < 512) :
    View.ld x0 (Rect.unit (s := S8x512x64) ![0, o, 0] ![8, 64, 64] inbQ) (ix3 b r d) = x0 (ix3 b ⟨o + r.val, ho⟩ d) := by
  show x0 _ = x0 _
  refine congrArg x0 (funext fun a => Fin.ext ?_)
  match a with
  | ⟨0, _⟩ => show 0 + 1 * b.val = b.val; omega
  | ⟨1, _⟩ => show o + 1 * r.val = o + r.val; omega
  | ⟨2, _⟩ => show 0 + 1 * d.val = d.val; omega

/-- The softmax piece stored at row offset `o` is the block's probabilities on its rectangle. -/
theorem softPiece (x0 x1 : Vec Ideal S8x512x64 .f32) (o : Nat)
    (inbA : ∀ a, (![0, o, 0] : Fin 3 → Nat) a + (![8, 64, 512] : Fin 3 → Nat) a ≤ S8x512x512.size a)
    (inbQ : ∀ a, (![0, o, 0] : Fin 3 → Nat) a + (![8, 64, 64] : Fin 3 → Nat) a ≤ S8x512x64.size a)
    (b : Fin 8) (r : Fin 64) (s : Fin 512) :
    k0_pay1 (F := Ideal) (k0_pay4 x1) (k0_pay8 (View.ld x0 (Rect.unit (s := S8x512x64) ![0, o, 0] ![8, 64, 64] inbQ))) (ix3 b r s)
      = blockAttn x0 x1 ((Rect.unit (s := S8x512x512) ![0, o, 0] ![8, 64, 512] inbA).emb (ix3 b r s)) := by
  have h1 : o + 64 ≤ 512 := inbQ 1
  have ho : o + r.val < 512 := by have := r.isLt; omega
  have hemb : (Rect.unit (s := S8x512x512) ![0, o, 0] ![8, 64, 512] inbA).emb (ix3 b r s) = ix3 b ⟨o + r.val, ho⟩ s :=
    funext fun a => Fin.ext (by
      match a with
      | ⟨0, _⟩ => show 0 + 1 * b.val = b.val; omega
      | ⟨1, _⟩ => show o + 1 * r.val = o + r.val; omega
      | ⟨2, _⟩ => show 0 + 1 * s.val = s.val; omega)
  rw [soft_apply, hemb]
  show Cert.Attn.prob _ _ b r s = Cert.Attn.prob x0 x1 b ⟨o + r.val, ho⟩ s
  exact Cert.Attn.prob_congr x0 x1 _ _ b ⟨o + r.val, ho⟩ b r (fun d => chunk_ld x0 o inbQ b r d ho) (fun _ _ => rfl) s

/-- The mix piece stored in the scratch at row offset `o` is the block's attention output on its rectangle. -/
theorem mixPiece (x0 x1 x2 : Vec Ideal S8x512x64 .f32) (o : Nat)
    (inbS : ∀ a, (![0, o, 0] : Fin 3 → Nat) a + (![8, 64, 64] : Fin 3 → Nat) a ≤ S8x512x64.size a)
    (inbQ : ∀ a, (![0, o, 0] : Fin 3 → Nat) a + (![8, 64, 64] : Fin 3 → Nat) a ≤ S8x512x64.size a)
    (b : Fin 8) (r : Fin 64) (e : Fin 64) :
    k0_pay12 (F := Ideal) (k0_pay5 x2)
        (k0_pay1 (k0_pay4 x1) (k0_pay8 (View.ld x0 (Rect.unit (s := S8x512x64) ![0, o, 0] ![8, 64, 64] inbQ)))) (ix3 b r e)
      = blockMix x0 x1 x2 ((Rect.unit (s := S8x512x64) ![0, o, 0] ![8, 64, 64] inbS).emb (ix3 b r e)) := by
  have h1 : o + 64 ≤ 512 := inbQ 1
  have ho : o + r.val < 512 := by have := r.isLt; omega
  have hemb : (Rect.unit (s := S8x512x64) ![0, o, 0] ![8, 64, 64] inbS).emb (ix3 b r e) = ix3 b ⟨o + r.val, ho⟩ e :=
    funext fun a => Fin.ext (by
      match a with
      | ⟨0, _⟩ => show 0 + 1 * b.val = b.val; omega
      | ⟨1, _⟩ => show o + 1 * r.val = o + r.val; omega
      | ⟨2, _⟩ => show 0 + 1 * e.val = e.val; omega)
  rw [mix_apply, hemb]
  show _ = Cert.Attn.mix x0 x1 x2 b ⟨o + r.val, ho⟩ e
  unfold Cert.Attn.mix
  refine Finset.sum_congr rfl fun s _ => ?_
  have hp := Cert.Attn.prob_congr x0 x1
    (k0_pay8 (F := Ideal) (View.ld x0 (Rect.unit (s := S8x512x64) ![0, o, 0] ![8, 64, 64] inbQ))) (k0_pay4 (F := Ideal) x1)
    b ⟨o + r.val, ho⟩ b r (fun d => chunk_ld x0 o inbQ b r d ho) (fun _ _ => rfl) s
  rw [soft_apply, hp]
  rfl

/-- The attention block a grid point's body leaves: the block's probabilities. -/
theorem attn_block (c : Dev nD) (i : grid0.Coords) (arg1 : Memref sig .tc .vmem S8x512x64 .f32) (harg1 : arg1.IsWhole) (arg2 : Memref sig .tc .vmem S8x512x64 .f32) (harg2 : arg2.IsWhole) (arg3 : Memref sig .tc .vmem S8x512x64 .f32) (harg3 : arg3.IsWhole) (arg4 : Memref sig .tc .vmem S8x32768 .f32) (harg4 : arg4.IsWhole) (arg5 : Memref sig .tc .vmem S8x512x512 .f32) (harg5 : arg5.IsWhole) (arg6 : Memref sig .tc .vmem S8x512x64 .f32) (harg6 : arg6.IsWhole)
    (x0 x1 x2 : Vec Ideal S8x512x64 .f32) :
    out0_A_4 (F := Ideal) c i arg1 harg1 arg2 harg2 arg3 harg3 arg4 harg4 arg5 harg5 arg6 harg6 x0 x1 x2 = blockAttn x0 x1 := by
  unfold out0_A_4
  rw [View.read_writes_eq_canon _ _ _ (cover0_A_4 c i arg1 harg1 arg2 harg2 arg3 harg3 arg4 harg4 arg5 harg5 arg6 harg6 x0 x1 x2)]
  funext y
  refine View.canon_apply_of_pieces (blockAttn x0 x1) _ ?_ y (cover0_A_4 c i arg1 harg1 arg2 harg2 arg3 harg3 arg4 harg4 arg5 harg5 arg6 harg6 x0 x1 x2 y)
  unfold kernelRun0_A
  dsimp only
  sl_unfold_words
  simp only [View.readAt_eq_ld, harg1.read_unread, harg2.read_unread, harg3.read_unread,
    View.ld_unit_zero (S := S8x512x64) hz3, soft6_eq, soft9_eq, soft11_eq, soft13_eq, soft16_eq, soft18_eq, soft20_eq,
    cast15_eq, cast22_eq]
  intro p hp
  simp only [List.mem_cons, List.mem_nil_iff, or_false] at hp
  rcases hp with rfl | rfl | rfl | rfl | rfl | rfl | rfl | rfl
  all_goals
    intro x
    obtain ⟨b, r, s, rfl⟩ : ∃ (b : Fin 8) (r : Fin 64) (s : Fin 512), x = ix3 b r s := ⟨x 0, x 1, x 2, eq_ix3 x⟩
    refine softPiece x0 x1 _ ?_ ?_ b r s <;> decide

/-- The flat output block a grid point's body leaves: the block's attention output, viewed `[8, 32768]`. -/
theorem out_block (c : Dev nD) (i : grid0.Coords) (arg1 : Memref sig .tc .vmem S8x512x64 .f32) (harg1 : arg1.IsWhole) (arg2 : Memref sig .tc .vmem S8x512x64 .f32) (harg2 : arg2.IsWhole) (arg3 : Memref sig .tc .vmem S8x512x64 .f32) (harg3 : arg3.IsWhole) (arg4 : Memref sig .tc .vmem S8x32768 .f32) (harg4 : arg4.IsWhole) (arg5 : Memref sig .tc .vmem S8x512x512 .f32) (harg5 : arg5.IsWhole) (arg6 : Memref sig .tc .vmem S8x512x64 .f32) (harg6 : arg6.IsWhole)
    (x0 x1 x2 : Vec Ideal S8x512x64 .f32) :
    out0_A_3 (F := Ideal) c i arg1 harg1 arg2 harg2 arg3 harg3 arg4 harg4 arg5 harg5 arg6 harg6 x0 x1 x2
      = shapeCast S8x32768 (blockMix x0 x1 x2) shapeCasts_S8x512x64_S8x32768 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero hz2]
  unfold k0_pay3
  refine congrArg (fun v => shapeCast S8x32768 v shapeCasts_S8x512x64_S8x32768) ?_
  rw [View.readCov_eq_canon']
  show View.ld (View.canon _) (Rect.unit ![0, 0, 0] S8x512x64.size inb_S8x512x64_S8x512x64_0_0_0) = _
  rw [View.ld_unit_zero (S := S8x512x64) hz3]
  funext y
  refine View.canon_apply_of_pieces (blockMix x0 x1 x2) _ ?_ y ?_
  · simp only [View.readAt_eq_ld, harg1.read_unread, harg2.read_unread, harg3.read_unread,
      View.ld_unit_zero (S := S8x512x64) hz3, mix2_eq, mix7_eq, mix10_eq, mix14_eq, mix17_eq, mix19_eq, mix21_eq,
      soft11_eq, soft18_eq, cast15_eq, cast22_eq]
    intro p hp
    simp only [List.mem_cons, List.mem_nil_iff, or_false] at hp
    rcases hp with rfl | rfl | rfl | rfl | rfl | rfl | rfl | rfl
    all_goals
      intro x
      obtain ⟨b, r, e, rfl⟩ : ∃ (b : Fin 8) (r : Fin 64) (e : Fin 64), x = ix3 b r e := ⟨x 0, x 1, x 2, eq_ix3 x⟩
      refine mixPiece x0 x1 x2 _ ?_ ?_ b r e <;> decide
  · exact View.cover_of_tiledL (s := S8x512x64) _ S8x64x64.size (by sl_kernel_rfl) y

end Cert.KernelIdeal.Block

end
-- ==== Proof.Arrays.lean ====
/-
  From blocks to arrays, at the ideal instance: what the two result arrays of the region hold after the run.

  The grid has thirty-two points; point `t` stages batches `8t … 8t + 7` of the queries, keys and values and writes
  back batches `8t … 8t + 7` of the two results. Every index map is `(t, 0, 0)` (or `(t, 0)`), decided once over
  the grid. A block of an input read at a local index is the array at the same index with the batch shifted by `8t`;
  a softmax row and its mix depend only on the row's own query row and its batch's keys and values, so what point
  `t` writes back is the restriction to its block of ONE function of the whole argument arrays. The blocks cover the
  arrays, so after the run the attention array is the specification's probabilities and the flat output array is the
  specification's output viewed `[256, 32768]`.
-/
import proofs.«176236_j73942156968094_2_alg».proof.Proof.Gen.KernelIdeal.Frame
import proofs.«176236_j73942156968094_2_alg».proof.Proof.Block
import Idealize.ShloMosaic.Lib.Pipeline.Value

set_option maxRecDepth 16384

noncomputable section

namespace Cert.KernelIdeal.Arrays

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Pure layout facts -/

theorem flat_S8x512x64 : S8x512x64.ShapeCasts S8x32768 := shapeCasts_S8x512x64_S8x32768
theorem flat_S256x512x64 : S256x512x64.ShapeCasts S256x32768 := by decide

/-- The flat view `[n, 32768]` of an `[n, 512, 64]` array reads `(g, f)` at `(g, f / 64, f % 64)`. -/
theorem flat_apply {α : Type} {n : Nat} (x : (⟨3, ![n, 512, 64]⟩ : Shape).Idx → α)
    (h : (⟨3, ![n, 512, 64]⟩ : Shape).ShapeCasts ⟨2, ![n, 32768]⟩) (g : Fin n) (f : Fin 32768) :
    shapeCast ⟨2, ![n, 32768]⟩ x h (ix2 g f)
      = x (ix3 g ⟨f.val / 64, by have := f.isLt; omega⟩ ⟨f.val % 64, Nat.mod_lt _ (by decide)⟩) :=
  shapeCast_apply x h _ _ (by
    rw [Shape.rowMajor_val_three, Shape.rowMajor_val_two]
    show (g.val * 512 + f.val / 64) * 64 + f.val % 64 = g.val * 32768 + f.val
    omega)

/-- The flat output array: the specification's output viewed `[256, 32768]`. -/
def flatArr (q k v : S256x512x64.Idx → EReal) : S256x32768.Idx → EReal :=
  shapeCast S256x32768 (Cert.Attn.mixArr q k v) flat_S256x512x64

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 32 := by
  have h := t.isLt
  have hN : cfg0.N = 32 := N_0
  omega

/-! ## An input block read at a local index -/

theorem iblk0_apply (c : Dev nD) (t : Fin cfg0.N) (b : Fin 8) (r : Fin 512) (d : Fin 64) (hb : t.val * 8 + b.val < 256) :
    (iblk m c 0 t : Vec Ideal S8x512x64 .f32) (ix3 b r d) = V m c main_arg0 (ix3 ⟨t.val * 8 + b.val, hb⟩ r d) := by
  obtain ⟨e0, e1, e2, -⟩ := idx_facts t
  show V m c main_arg0 (((cfg0.win 0).blk t).view.emb (ix3 b r d)) = V m c main_arg0 _
  refine congrArg (V m c main_arg0) (funext fun a => Fin.ext ?_)
  match a with
  | ⟨0, _⟩ => show win0_0.index t (0 : Fin 3) * 8 + 1 * b.val = t.val * 8 + b.val; rw [e0]; omega
  | ⟨1, _⟩ => show win0_0.index t (1 : Fin 3) * 512 + 1 * r.val = r.val; rw [e1]; omega
  | ⟨2, _⟩ => show win0_0.index t (2 : Fin 3) * 64 + 1 * d.val = d.val; rw [e2]; omega

theorem iblk1_apply (c : Dev nD) (t : Fin cfg0.N) (b : Fin 8) (r : Fin 512) (d : Fin 64) (hb : t.val * 8 + b.val < 256) :
    (iblk m c 1 t : Vec Ideal S8x512x64 .f32) (ix3 b r d) = V m c main_arg1 (ix3 ⟨t.val * 8 + b.val, hb⟩ r d) := by
  obtain ⟨-, -, -, e0, e1, e2, -⟩ := idx_facts t
  show V m c main_arg1 (((cfg0.win 1).blk t).view.emb (ix3 b r d)) = V m c main_arg1 _
  refine congrArg (V m c main_arg1) (funext fun a => Fin.ext ?_)
  match a with
  | ⟨0, _⟩ => show win0_1.index t (0 : Fin 3) * 8 + 1 * b.val = t.val * 8 + b.val; rw [e0]; omega
  | ⟨1, _⟩ => show win0_1.index t (1 : Fin 3) * 512 + 1 * r.val = r.val; rw [e1]; omega
  | ⟨2, _⟩ => show win0_1.index t (2 : Fin 3) * 64 + 1 * d.val = d.val; rw [e2]; omega

theorem iblk2_apply (c : Dev nD) (t : Fin cfg0.N) (b : Fin 8) (r : Fin 512) (d : Fin 64) (hb : t.val * 8 + b.val < 256) :
    (iblk m c 2 t : Vec Ideal S8x512x64 .f32) (ix3 b r d) = V m c main_arg2 (ix3 ⟨t.val * 8 + b.val, hb⟩ r d) := by
  obtain ⟨-, -, -, -, -, -, e0, e1, e2, -⟩ := idx_facts t
  show V m c main_arg2 (((cfg0.win 2).blk t).view.emb (ix3 b r d)) = V m c main_arg2 _
  refine congrArg (V m c main_arg2) (funext fun a => Fin.ext ?_)
  match a with
  | ⟨0, _⟩ => show win0_2.index t (0 : Fin 3) * 8 + 1 * b.val = t.val * 8 + b.val; rw [e0]; omega
  | ⟨1, _⟩ => show win0_2.index t (1 : Fin 3) * 512 + 1 * r.val = r.val; rw [e1]; omega
  | ⟨2, _⟩ => show win0_2.index t (2 : Fin 3) * 64 + 1 * d.val = d.val; rw [e2]; omega

/-! ## What point `t` writes back -/

/-- Point `t` writes back, into the attention array, block `t` of the specification's probabilities of the argument
    arrays as the region finds them. -/
theorem flushed4_eq (c : Dev nD) (t : Fin cfg0.N) :
    (dats m 0 c).flushed 4 t
      = ((cfg0.win 4).blk t).view.read (Elt Ideal) (Cert.Attn.probArr (V m c main_arg0) (V m c main_arg1)) := by
  show (cfg0.win 4).cut (grid0.coords t) ((dats m 0 c).after 4 t) = _
  rw [after0_4]
  unfold outsAt0
  dsimp only
  rw [attn_block]
  have ht := t_lt t
  obtain ⟨-, -, -, -, -, -, -, -, -, -, -, e0, e1, e2⟩ := idx_facts t
  funext j
  obtain ⟨b, r, s, rfl⟩ : ∃ (b : Fin 8) (r : Fin 512) (s : Fin 512), j = ix3 b r s := ⟨j 0, j 1, j 2, eq_ix3 j⟩
  have hb : t.val * 8 + b.val < 256 := by have := b.isLt; omega
  have hemb : ((cfg0.win 4).blk t).view.emb (ix3 b r s) = (ix3 ⟨t.val * 8 + b.val, hb⟩ r s : S256x512x512.Idx) :=
    funext fun a => Fin.ext (by
      match a with
      | ⟨0, _⟩ => show win0_4.index t (0 : Fin 3) * 8 + 1 * b.val = t.val * 8 + b.val; rw [e0]; omega
      | ⟨1, _⟩ => show win0_4.index t (1 : Fin 3) * 512 + 1 * r.val = r.val; rw [e1]; omega
      | ⟨2, _⟩ => show win0_4.index t (2 : Fin 3) * 512 + 1 * s.val = s.val; rw [e2]; omega)
  show blockAttn (iblk m c 0 t) (iblk m c 1 t) (ix3 b r s)
    = Cert.Attn.probArr (V m c main_arg0) (V m c main_arg1) (((cfg0.win 4).blk t).view.emb (ix3 b r s))
  rw [hemb]
  exact Cert.Attn.prob_congr (V m c main_arg0) (V m c main_arg1) (iblk m c 0 t) (iblk m c 1 t)
    ⟨t.val * 8 + b.val, hb⟩ r b r (fun d => iblk0_apply m c t b r d hb) (fun s' d => iblk1_apply m c t b s' d hb) s

/-- Point `t` writes back, into the flat output array, block `t` of the specification's output viewed flat. -/
theorem flushed3_eq (c : Dev nD) (t : Fin cfg0.N) :
    (dats m 0 c).flushed 3 t
      = ((cfg0.win 3).blk t).view.read (Elt Ideal) (flatArr (V m c main_arg0) (V m c main_arg1) (V m c main_arg2)) := by
  show (cfg0.win 3).cut (grid0.coords t) ((dats m 0 c).after 3 t) = _
  rw [after0_3]
  unfold outsAt0
  dsimp only
  rw [out_block]
  have ht := t_lt t
  obtain ⟨-, -, -, -, -, -, -, -, -, e0, e1, -⟩ := idx_facts t
  funext j
  obtain ⟨b, f, rfl⟩ : ∃ (b : Fin 8) (f : Fin 32768), j = ix2 b f := ⟨j 0, j 1, eq_ix2 j⟩
  have hb : t.val * 8 + b.val < 256 := by have := b.isLt; omega
  have hemb : ((cfg0.win 3).blk t).view.emb (ix2 b f) = (ix2 ⟨t.val * 8 + b.val, hb⟩ f : S256x32768.Idx) :=
    funext fun a => Fin.ext (by
      match a with
      | ⟨0, _⟩ => show win0_3.index t (0 : Fin 2) * 8 + 1 * b.val = t.val * 8 + b.val; rw [e0]; omega
      | ⟨1, _⟩ => show win0_3.index t (1 : Fin 2) * 32768 + 1 * f.val = f.val; rw [e1]; omega)
  show shapeCast S8x32768 (blockMix (iblk m c 0 t) (iblk m c 1 t) (iblk m c 2 t)) shapeCasts_S8x512x64_S8x32768 (ix2 b f)
    = flatArr (V m c main_arg0) (V m c main_arg1) (V m c main_arg2) (((cfg0.win 3).blk t).view.emb (ix2 b f))
  rw [hemb]
  unfold flatArr
  rw [flat_apply, flat_apply]
  exact Cert.Attn.mix_congr (V m c main_arg0) (V m c main_arg1) (V m c main_arg2)
    (iblk m c 0 t) (iblk m c 1 t) (iblk m c 2 t) ⟨t.val * 8 + b.val, hb⟩ _ b _
    (fun d => iblk0_apply m c t b _ d hb) (fun s' d => iblk1_apply m c t b s' d hb)
    (fun s' e => iblk2_apply m c t b s' e hb) _

/-! ## The blocks cover the arrays -/

theorem mem_blk4 (t : Fin cfg0.N) (i : S256x512x512.Idx) :
    i ∈ ((cfg0.win 4).blk t).view.set ↔ ∀ a : Fin 3, win0_4.index t a * S8x512x512.size a ≤ (i a).val
      ∧ (i a).val < win0_4.index t a * S8x512x512.size a + S8x512x512.size a := by
  show i ∈ ((View.whole main_v0_1).slice (win0_4.rect t)).set ↔ _
  rw [View.set_slice_whole, Rect.mem_set_unit]
  exact Iff.rfl

theorem mem_blk3 (t : Fin cfg0.N) (i : S256x32768.Idx) :
    i ∈ ((cfg0.win 3).blk t).view.set ↔ ∀ a : Fin 2, win0_3.index t a * S8x32768.size a ≤ (i a).val
      ∧ (i a).val < win0_3.index t a * S8x32768.size a + S8x32768.size a := by
  show i ∈ ((View.whole main_v0_0).slice (win0_3.rect t)).set ↔ _
  rw [View.set_slice_whole, Rect.mem_set_unit]
  exact Iff.rfl

/-- Batch `g` of the attention array is in the block of point `g / 8`. -/
theorem cover4 (i : S256x512x512.Idx) :
    ∃ t : Fin cfg0.N, (cfg0.win 4).flush t = true ∧ i ∈ ((cfg0.win 4).blk t).view.set := by
  have hi0 : (i 0).val < 256 := (i 0).isLt
  have hi1 : (i 1).val < 512 := (i 1).isLt
  have hi2 : (i 2).val < 512 := (i 2).isLt
  have hN : cfg0.N = 32 := N_0
  have hlt : (i 0).val / 8 < cfg0.N := by omega
  refine ⟨⟨(i 0).val / 8, hlt⟩, flush0_4 _, ?_⟩
  obtain ⟨-, -, -, -, -, -, -, -, -, -, -, e0, e1, e2⟩ := idx_facts ⟨(i 0).val / 8, hlt⟩
  rw [mem_blk4]
  intro a
  match a with
  | ⟨0, _⟩ =>
    show win0_4.index ⟨(i 0).val / 8, hlt⟩ (0 : Fin 3) * 8 ≤ (i 0).val
      ∧ (i 0).val < win0_4.index ⟨(i 0).val / 8, hlt⟩ (0 : Fin 3) * 8 + 8
    rw [e0]; show (i 0).val / 8 * 8 ≤ (i 0).val ∧ (i 0).val < (i 0).val / 8 * 8 + 8; omega
  | ⟨1, _⟩ =>
    show win0_4.index ⟨(i 0).val / 8, hlt⟩ (1 : Fin 3) * 512 ≤ (i 1).val
      ∧ (i 1).val < win0_4.index ⟨(i 0).val / 8, hlt⟩ (1 : Fin 3) * 512 + 512
    rw [e1]; omega
  | ⟨2, _⟩ =>
    show win0_4.index ⟨(i 0).val / 8, hlt⟩ (2 : Fin 3) * 512 ≤ (i 2).val
      ∧ (i 2).val < win0_4.index ⟨(i 0).val / 8, hlt⟩ (2 : Fin 3) * 512 + 512
    rw [e2]; omega

/-- Batch `g` of the flat output array is in the block of point `g / 8`. -/
theorem cover3 (i : S256x32768.Idx) :
    ∃ t : Fin cfg0.N, (cfg0.win 3).flush t = true ∧ i ∈ ((cfg0.win 3).blk t).view.set := by
  have hi0 : (i 0).val < 256 := (i 0).isLt
  have hi1 : (i 1).val < 32768 := (i 1).isLt
  have hN : cfg0.N = 32 := N_0
  have hlt : (i 0).val / 8 < cfg0.N := by omega
  refine ⟨⟨(i 0).val / 8, hlt⟩, flush0_3 _, ?_⟩
  obtain ⟨-, -, -, -, -, -, -, -, -, e0, e1, -⟩ := idx_facts ⟨(i 0).val / 8, hlt⟩
  rw [mem_blk3]
  intro a
  match a with
  | ⟨0, _⟩ =>
    show win0_3.index ⟨(i 0).val / 8, hlt⟩ (0 : Fin 2) * 8 ≤ (i 0).val
      ∧ (i 0).val < win0_3.index ⟨(i 0).val / 8, hlt⟩ (0 : Fin 2) * 8 + 8
    rw [e0]; show (i 0).val / 8 * 8 ≤ (i 0).val ∧ (i 0).val < (i 0).val / 8 * 8 + 8; omega
  | ⟨1, _⟩ =>
    show win0_3.index ⟨(i 0).val / 8, hlt⟩ (1 : Fin 2) * 32768 ≤ (i 1).val
      ∧ (i 1).val < win0_3.index ⟨(i 0).val / 8, hlt⟩ (1 : Fin 2) * 32768 + 32768
    rw [e1]; omega

/-! ## The two result arrays of the region after the run -/

theorem final4 (c : Dev nD) :
    (dats m 0 c).arrAt 4 cfg0.N
      = Cert.Attn.probArr (m ((c : Thread nD τ).loc main_arg0)) (m ((c : Thread nD τ).loc main_arg1)) :=
  (dats m 0 c).arrAt_eq_of_cover 4 (Cert.Attn.probArr (V m c main_arg0) (V m c main_arg1))
    (fun t _ => flushed4_eq m c t) (cover4)

theorem final3 (c : Dev nD) :
    (dats m 0 c).arrAt 3 cfg0.N
      = flatArr (m ((c : Thread nD τ).loc main_arg0)) (m ((c : Thread nD τ).loc main_arg1))
          (m ((c : Thread nD τ).loc main_arg2)) :=
  (dats m 0 c).arrAt_eq_of_cover 3 (flatArr (V m c main_arg0) (V m c main_arg1) (V m c main_arg2))
    (fun t _ => flushed3_eq m c t) (cover3)

end Cert.KernelIdeal.Arrays

end
-- ==== Proof.KernelRun.lean ====
/-
  The idealized kernel's run, read: after every weakly fair execution the two results of @main hold the
  specification's attention output and probabilities of the argument arrays, and the arguments are unchanged.

  The region leaves the attention array at the probabilities and the flat array at the output viewed
  `[256, 32768]`; the one host line after the region views the flat array `[256, 512, 64]` again, and a view there and
  back is the identity.
-/
import proofs.«176236_j73942156968094_2_alg».proof.Proof.Gen.KernelIdeal.Frame
import proofs.«176236_j73942156968094_2_alg».proof.Proof.Arrays
import Idealize.ShloMosaic.Lib.Pipeline.Value
import Idealize.ShloMosaic.Lib.StableHlo.Run

set_option maxRecDepth 16384

noncomputable section

namespace Cert.KernelIdeal.Run

open Cert.KernelIdeal Cert.KernelIdeal.Gen Cert.KernelIdeal.Arrays
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The host line after the region: the flat array viewed `[256, 512, 64]` is the specification's output. -/
theorem tail_out (c : Dev nD) :
    Pipeline.afterTail₀ cfgs (dats m) 0 (V0 m) [hostOps1] c main_v1
      = Cert.Attn.mixArr (m ((c : Thread nD τ).loc main_arg0)) (m ((c : Thread nD τ).loc main_arg1))
          (m ((c : Thread nD τ).loc main_arg2)) := by
  have hA : Pipeline.withArrays (cfgs 0).spec c (V0 m c) (fun w => (dats m 0 c).arrAt w (cfgs 0).N)
        (Proc.devRef .tc main_v0_0)
      = flatArr (m ((c : Thread nD τ).loc main_arg0)) (m ((c : Thread nD τ).loc main_arg1)) (m ((c : Thread nD τ).loc main_arg2)) :=
    (Pipeline.withArrays_arr spec0 launch0.win.arr_inj c _ _ 3).trans (final3 m c)
  unfold Pipeline.afterTail₀
  show StableHlo.after hostOps1 _ (Proc.devRef .tc main_v1) = _
  after_results
  funext i
  refine Eq.trans (b := shapeCast S256x512x64
      (flatArr (m ((c : Thread nD τ).loc main_arg0)) (m ((c : Thread nD τ).loc main_arg1)) (m ((c : Thread nD τ).loc main_arg2)))
      shapeCasts_S256x32768_S256x512x64 i) ?_ ?_
  · exact congrArg (fun X => shapeCast S256x512x64 X shapeCasts_S256x32768_S256x512x64 i) hA
  · unfold flatArr
    rw [shapeCast_shapeCast]

/-- The result of the host line is no array of the region. -/
theorem v1_rest : main_v1 ∈ Pipeline.restRefs sig (cfgs 0).spec :=
  Pipeline.mem_restRefs_of main_v1 rfl (fun w => by fin_cases w <;> decide)

/-- Every weakly fair execution of the idealized kernel's @main terminates with the output result at the
    specification's attention output, the attention result at its probabilities, and the arguments unchanged. -/
theorem run : θ_run defs (onTc (τ := τ) (main (F := Ideal))) ⟨m, fun _ => 0, ρ⟩ (fun r => ∀ c : Dev nD,
      r.2.mem ((c.tc : Thread nD τ).loc main_v1)
        = Cert.Attn.mixArr (m ((c.tc : Thread nD τ).loc main_arg0)) (m ((c.tc : Thread nD τ).loc main_arg1))
            (m ((c.tc : Thread nD τ).loc main_arg2))
      ∧ r.2.mem ((c.tc : Thread nD τ).loc main_v0_1)
        = Cert.Attn.probArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v1 v1_rest).trans (tail_out m c),
      ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.RefSpec.lean ====
/-
  The reference, one stage at a time, is the specification.

  Read at an index, the reference's host program computes: the dot product of a query row and a key row divided by
  8 — which is that dot product times 0.125 on every extended real —; the row's maximum as a fold of `max` from −∞,
  then the `max` of −∞ with it again, which changes nothing; the exponential of the score less that maximum; the sum
  of those from 0, which is the plain sum; the quotient; and the sum over the keys of quotient times value. Those
  are, stage by stage, the specification's score, row maximum, numerator, denominator, probability and mix.
-/
import proofs.«176236_j73942156968094_2_alg».proof.Proof.Gen.ReferenceIdeal.Read
import proofs.«176236_j73942156968094_2_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read
open Idealize.ShloMosaic Idealize.ShloMosaic.ValueIdx

variable (x0 x1 x2 : (⟨S256x512x64, .f32⟩ : BufTy).Contents (Elt Ideal))

theorem reduces_last : S256x512x512.Reduces [2] S256x512 := by decide

/-- The scaled score. -/
theorem score_eq (b : Fin 256) (t s : Fin 512) :
    val_main_v2 (F := Ideal) x0 x1 (ix3 b t s) = Cert.Attn.score x0 x1 b t s := by
  have hl : ∀ k : Fin 64, lidx_main_v0 (ix3 b t s) k = ix3 b t k := fun k =>
    funext fun a => Fin.ext (by match a with | ⟨0, _⟩ => rfl | ⟨1, _⟩ => rfl | ⟨2, _⟩ => rfl)
  have hr : ∀ k : Fin 64, ridx_main_v0 (ix3 b t s) k = ix3 b s k := fun k =>
    funext fun a => Fin.ext (by match a with | ⟨0, _⟩ => rfl | ⟨1, _⟩ => rfl | ⟨2, _⟩ => rfl)
  rw [val_main_v2_apply, val_main_v0_apply, val_main_v1_apply, val_main_cst_apply]
  simp only [Ideal.hostDivf_def, Ideal.ofBits_def, hl, hr]
  rw [Cert.Attn.div_eight]
  rfl

-- the coordinates of the inserted index compute, through extents of 256 and 512: deeper than the default recursion limit
set_option maxRecDepth 200000 in
/-- Row `(b, t)` of the scores with key `s` put back: the index the host's one-axis reduction reads. -/
theorem lift_eq (b : Fin 256) (t s : Fin 512) : reduces_last.lift (ix2 b t) s = ix3 b t s :=
  funext fun a => Fin.ext (by match a with | ⟨0, _⟩ => rfl | ⟨1, _⟩ => rfl | ⟨2, _⟩ => rfl)

/-- The host's maximum-reduce over the keys: the fold of `max` over the row from −∞. -/
theorem reduceMax_eq (b : Fin 256) (t : Fin 512) :
    val_main_v3 (F := Ideal) x0 x1 (ix2 b t) = Cert.Attn.rowMax x0 x1 b t := by
  unfold val_main_v3
  rw [Host.reduce_eq_fold_single (FloatOps.maximumf (F := Ideal) (φ := .f32)) (val_main_v2 (F := Ideal) x0 x1)
    (val_main_cst_0 (F := Ideal)) reducesTo_S256x512x512_S256x512_d2 reduces_last h_S_ (ix2 b t)]
  show (Finset.univ : Finset (Fin 512)).fold max (Ideal.ofBits .f32 0xFF800000#32)
    (val_main_v2 (F := Ideal) x0 x1 ∘ reduces_last.lift (ix2 b t)) = _
  unfold Cert.Attn.rowMax
  exact congrArg (fun f => (Finset.univ : Finset (Fin 512)).fold max (Ideal.ofBits .f32 0xFF800000#32) f)
    (funext fun s => (congrArg (val_main_v2 (F := Ideal) x0 x1) (lift_eq b t s)).trans (score_eq x0 x1 b t s))

/-- The `max` of −∞ with the row's maximum is the row's maximum. -/
theorem rowMax_eq (b : Fin 256) (t : Fin 512) :
    val_main_v5 (F := Ideal) x0 x1 (ix2 b t) = Cert.Attn.rowMax x0 x1 b t := by
  rw [val_main_v5_apply, val_main_v4_apply, val_main_cst_1_apply, reduceMax_eq]
  show max (Ideal.ofBits .f32 0xFF800000#32) (Cert.Attn.rowMax x0 x1 b t) = _
  unfold Cert.Attn.rowMax
  exact Cert.Attn.max_init_fold _ _ _

/-- The row's maximum, kept as a column and broadcast over the keys. -/
theorem rowMaxB_eq (b : Fin 256) (t s : Fin 512) :
    val_main_v7 (F := Ideal) x0 x1 (ix3 b t s) = Cert.Attn.rowMax x0 x1 b t := by
  have hi : idx_main_v6 (idx_main_v7 (ix3 b t s)) = ix2 b t :=
    funext fun a => Fin.ext (by match a with | ⟨0, _⟩ => rfl | ⟨1, _⟩ => rfl)
  rw [val_main_v7_apply, val_main_v6_apply, hi, rowMax_eq]

/-- The softmax numerator. -/
theorem num_eq (b : Fin 256) (t s : Fin 512) :
    val_main_v9 (F := Ideal) x0 x1 (ix3 b t s) = Cert.Attn.num x0 x1 b t s := by
  rw [val_main_v9_apply, val_main_v8_apply, score_eq, rowMaxB_eq]
  rfl

/-- The softmax denominator: the sum from 0 is the sum. -/
theorem den_eq (b : Fin 256) (t : Fin 512) :
    val_main_v10 (F := Ideal) x0 x1 (ix2 b t) = Cert.Attn.den x0 x1 b t := by
  have hi : ∀ k : Fin 512, idx_main_v10 (ix2 b t) k = ix3 b t k := fun k =>
    funext fun a => Fin.ext (by match a with | ⟨0, _⟩ => rfl | ⟨1, _⟩ => rfl | ⟨2, _⟩ => rfl)
  rw [val_main_v10_apply, val_main_cst_2_apply]
  simp only [Ideal.ofBits_def, Ideal.ofBits_zero_f32, zero_add, hi, num_eq]
  rfl

/-- The denominator, kept as a column and broadcast over the keys. -/
theorem denB_eq (b : Fin 256) (t s : Fin 512) :
    val_main_v12 (F := Ideal) x0 x1 (ix3 b t s) = Cert.Attn.den x0 x1 b t := by
  have hi : idx_main_v11 (idx_main_v12 (ix3 b t s)) = ix2 b t :=
    funext fun a => Fin.ext (by match a with | ⟨0, _⟩ => rfl | ⟨1, _⟩ => rfl)
  rw [val_main_v12_apply, val_main_v11_apply, hi, den_eq]

/-- The attention probability. -/
theorem prob_eq (b : Fin 256) (t s : Fin 512) :
    val_main_v13 (F := Ideal) x0 x1 (ix3 b t s) = Cert.Attn.prob x0 x1 b t s := by
  rw [val_main_v13_apply, num_eq, denB_eq]
  rfl

/-- The reference's attention result is the specification's probabilities. -/
theorem probArr_eq : val_main_v13 (F := Ideal) x0 x1 = Cert.Attn.probArr x0 x1 := by
  funext i
  obtain ⟨b, t, s, rfl⟩ : ∃ (b : Fin 256) (t s : Fin 512), i = ix3 b t s := ⟨i 0, i 1, i 2, eq_ix3 i⟩
  exact prob_eq x0 x1 b t s

/-- The reference's output result is the specification's attention output. -/
theorem mixArr_eq : val_main_v14 (F := Ideal) x0 x1 x2 = Cert.Attn.mixArr x0 x1 x2 := by
  funext i
  obtain ⟨b, t, e, rfl⟩ : ∃ (b : Fin 256) (t : Fin 512) (e : Fin 64), i = ix3 b t e := ⟨i 0, i 1, i 2, eq_ix3 i⟩
  have hl : ∀ k : Fin 512, lidx_main_v14 (ix3 b t e) k = ix3 b t k := fun k =>
    funext fun a => Fin.ext (by match a with | ⟨0, _⟩ => rfl | ⟨1, _⟩ => rfl | ⟨2, _⟩ => rfl)
  have hr : ∀ k : Fin 512, ridx_main_v14 (ix3 b t e) k = ix3 b k e := fun k =>
    funext fun a => Fin.ext (by match a with | ⟨0, _⟩ => rfl | ⟨1, _⟩ => rfl | ⟨2, _⟩ => rfl)
  rw [val_main_v14_apply]
  simp only [hl, hr, prob_eq]
  rfl

end Cert.ReferenceIdeal.RefSpec

end
-- ==== Proof.lean ====
/-
  Scaled dot-product attention over 256 batches of 512 query, key and value rows of width 64, as a blocked kernel
  and as a plain array program, equal over the extended reals.

  Both programs return, for each batch `b`, the softmax rows
      prob[b, t, s] = exp (score[b,t,s] − max_s score[b,t,s]) / ∑_s exp (score[b,t,s] − max_s score[b,t,s]),
      score[b, t, s] = (∑_d q[b,t,d] · k[b,s,d]) · 1/8,
  and the output  out[b, t, e] = ∑_s prob[b,t,s] · v[b,s,e].

  The kernel runs a grid of thirty-two points, each on eight batches, and inside a point works through the 512
  query rows in eight chunks of sixty-four; it multiplies the scores by the word for 0.125 and stores the output
  through a flat `[256, 32768]` array that the host views `[256, 512, 64]` again. The array program divides the
  scores by the word for 8, takes the `max` of −∞ with the row maximum once more, and sums from 0.

  Nothing here needs the inputs to be finite: a softmax row and its mix depend only on the row's own query row and
  its batch's keys and values, so blocking and chunking change no sum; multiplying by 1/8 is dividing by 8 on every
  extended real; a fold of `max` from −∞ is not below −∞; and `0 + x = x`. With those the two programs are the same
  term, index by index (Proof/Spec.lean states it; Proof/KernelRun.lean and Proof/RefSpec.lean bring each side to it).

  The kernel's idealization rewrote no operation, so the kernel is its own idealization read at the ideal instance.
-/
import proofs.«176236_j73942156968094_2_alg».proof.Defs
import proofs.«176236_j73942156968094_2_alg».proof.Proof.Gen.Kernel
import proofs.«176236_j73942156968094_2_alg».proof.Proof.Gen.Kernel.Frame
import proofs.«176236_j73942156968094_2_alg».proof.Proof.Gen.KernelIdeal
import proofs.«176236_j73942156968094_2_alg».proof.Proof.Gen.KernelIdeal.Frame
import proofs.«176236_j73942156968094_2_alg».proof.Proof.Gen.ReferenceIdeal
import proofs.«176236_j73942156968094_2_alg».proof.Proof.Gen.ReferenceIdeal.Run
import proofs.«176236_j73942156968094_2_alg».proof.Proof.Gen.ReferenceIdeal.Read
import proofs.«176236_j73942156968094_2_alg».proof.Proof.Gen.Pre_finite_inputs
import proofs.«176236_j73942156968094_2_alg».proof.Proof.KernelRun
import proofs.«176236_j73942156968094_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel (hKernel := Cert.Kernel.Gen.facts)
    (hPre_finite_inputs := Cert.Pre_finite_inputs.Gen.facts) :=
  fun m ρ _ => Cert.Kernel.Gen.frame m ρ

/-- So does the kernel read at the ideal instance. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- And the array program: its run with the two results dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories that agree on the three arguments both programs end with the output at the specification's
    attention output and the attention result at its probabilities, of the same argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.mixArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.probArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.ReferenceIdeal.RefSpec.mixArr_eq,
      (hagree c).1, (hagree c).2.1, (hagree c).2.2]
  · rw [(h c).2.1, Cert.ReferenceIdeal.Read.val_main_v13_eq, Cert.ReferenceIdeal.RefSpec.probArr_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
